-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x1x2048x2048 : Shape := ⟨4, ![2, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x1x2048x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S64x2048 : Shape := ⟨2, ![64, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i32⟩
  | .hbm, ⟨4, _⟩ => ⟨S2x16x2048x64, .f32⟩
  | .hbm, ⟨5, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x2048, .i32⟩
  | .local _ .vmem, ⟨7, _⟩ => ⟨S1x1x512x2048, .i32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  bitsLt_bf16_f32 : FTy.bits .bf16 < FTy.bits .f32
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S2x1x2048x2048.size a
  hwx0_3 : ∀ i : grid0.Coords, EltTy.bits .i32 = 32 ∨ (Rect.block (s := S2x1x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x16x2048x2048.size a
  hwx0_5 : ∀ i : grid0.Coords, EltTy.bits .f32 = 32 ∨ (Rect.block (s := S2x16x2048x2048) S1x1x512x2048.size (cc0_transform_5 i) (hinb0_5 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i32⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .i32⟩
  | .hbm, ⟨9, _⟩ => ⟨S2x1x2048x2048, .i32⟩
  | .hbm, ⟨10, _⟩ => ⟨S2x1x2048x2048, .i1⟩
  | .hbm, ⟨11, _⟩ => ⟨S_, .f32⟩
  | .hbm, ⟨12, _⟩ => ⟨S2x16x2048x2048, .i1⟩
  | .hbm, ⟨13, _⟩ => ⟨S2x16x2048x2048, .f32⟩
  | .hbm, ⟨14, _⟩ => ⟨S2x16x2048x2048, .f32⟩
  | .hbm, ⟨15, _⟩ => ⟨S_, .f32⟩
  | .hbm, ⟨16, _⟩ => ⟨S2x16x2048, .f32⟩
  | .hbm, ⟨17, _⟩ => ⟨S_, .f32⟩
  | .hbm, ⟨18, _⟩ => ⟨S2x16x2048, .f32⟩
  | .hbm, ⟨19, _⟩ => ⟨S2x16x2048, .f32⟩
  | .hbm, ⟨20, _⟩ => ⟨S2x16x2048x1, .f32⟩
  | .hbm, ⟨21, _⟩ => ⟨S2x16x2048x2048, .f32⟩
  | .hbm, ⟨22, _⟩ => ⟨S2x16x2048x2048, .f32⟩
  | .hbm, ⟨23, _⟩ => ⟨S2x16x2048x2048, .f32⟩
  | .hbm, ⟨24, _⟩ => ⟨S_, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Attention.lean ====
/-
  Masked scaled dot-product attention on the extended reals, one query row at a time.

  For one batch entry and one head, a query row q (64 numbers), the keys K (2048 rows of 64), a mask row
  (2048 integer words) and the values V (2048 rows of 64):
    score k   = the fill -1e9 where the mask word at k is zero, else  sc (sum over d of q d * K k d)
    rowMax    = the maximum of the scores over k, taken from -infinity
    weight k  = exp (score k - rowMax) / (sum over k' of exp (score k' - rowMax))
    context d = sum over k of weight k * V k d
  The scaling sc is a parameter: one program multiplies the dot product by 1/8, the other divides it by 8, and on
  the extended reals these are one function (division by a nonzero real is the product with its reciprocal, at the
  infinities too). The arrays' forms (attn, context) read the rows out of the four argument arrays.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-! ## The constants the two programs spell -/

/-- The pattern of 0.125 denotes the real 1/8. -/
theorem ofBits_eighth : Ideal.ofBits .f32 0x3E000000#32 = ((1 / 8 : ℝ) : EReal) := by
  simp [Ideal.ofBits, Ideal.ieee, -EReal.coe_mul]; norm_num

/-- The pattern of 8.0 denotes the real 8. -/
theorem ofBits_eight : Ideal.ofBits .f32 0x41000000#32 = ((8 : ℝ) : EReal) := by
  simp [Ideal.ofBits, Ideal.ieee, -EReal.coe_mul]; norm_num

/-- The pattern of -infinity denotes the bottom of the extended reals. -/
theorem ofBits_neg_inf : Ideal.ofBits .f32 0xFF800000#32 = (⊥ : EReal) := by
  simp [Ideal.ofBits, Ideal.ieee]

/-! ## The two scalings are one function -/

/-- The product with the pattern of 0.125. -/
def scaleMul (x : EReal) : EReal := x * Ideal.ofBits .f32 0x3E000000#32

/-- The quotient by the pattern of 8.0. -/
def scaleDiv (x : EReal) : EReal := Ideal.div x (Ideal.ofBits .f32 0x41000000#32)

/-- x * (1/8) = x / 8 for every extended real x. -/
theorem scaleMul_eq_scaleDiv : scaleMul = scaleDiv := by
  funext x
  unfold scaleMul scaleDiv
  rw [ofBits_eighth, ofBits_eight, Ideal.div_coe (by norm_num : (8 : ℝ) ≠ 0) x]

/-! ## One query row -/

/-- The masked, scaled scores of one query row against the 2048 keys. -/
def rowScore (sc : EReal → EReal) (q : Fin 64 → EReal) (Km : Fin 2048 → Fin 64 → EReal) (mk : Fin 2048 → BitVec 32) :
    Fin 2048 → EReal :=
  fun k => Scalar.select (IntOp.cmpi .eq (mk k) 0#32) (Ideal.ofBits .f32 0xCE6E6B28#32) (sc (∑ d : Fin 64, q d * Km k d))

/-- The row's maximum, folded from -infinity. -/
def rowMax (s : Fin 2048 → EReal) : EReal :=
  (Finset.univ : Finset (Fin 2048)).fold max (Ideal.ofBits .f32 0xFF800000#32) s

/-- The exponential of a score's distance below the row maximum. -/
def rowExp (s : Fin 2048 → EReal) (k : Fin 2048) : EReal := Ideal.exp (s k - rowMax s)

/-- The softmax weights of a row of scores. -/
def rowSoftmax (s : Fin 2048 → EReal) (k : Fin 2048) : EReal :=
  Ideal.div (rowExp s k) (∑ k' : Fin 2048, rowExp s k')

/-- The weighted sum of the value rows. -/
def rowCtx (w : Fin 2048 → EReal) (Vm : Fin 2048 → Fin 64 → EReal) (d : Fin 64) : EReal :=
  ∑ k : Fin 2048, w k * Vm k d

/-! ## The arrays -/

abbrev SQKV : Shape := ⟨4, ![2, 16, 2048, 64]⟩
abbrev SMask : Shape := ⟨4, ![2, 1, 2048, 2048]⟩
abbrev SAttn : Shape := ⟨4, ![2, 16, 2048, 2048]⟩

/-- The attention weights of query row q of head h of batch entry b. The mask has one head axis entry, shared by all heads. -/
def weights (sc : EReal → EReal) (Q K : SQKV.Idx → EReal) (M : SMask.Idx → BitVec 32) (b : Fin 2) (h : Fin 16) (q : Fin 2048) :
    Fin 2048 → EReal :=
  rowSoftmax (rowScore sc (fun d => Q (ix4 b h q d)) (fun k d => K (ix4 b h k d)) (fun k => M (ix4 b (0 : Fin 1) q k)))

/-- The attention matrix, index by index. -/
def attn (sc : EReal → EReal) (Q K : SQKV.Idx → EReal) (M : SMask.Idx → BitVec 32) : SAttn.Idx → EReal :=
  fun i => weights sc Q K M (i 0) (i 1) (i 2) (i 3)

/-- The context array, index by index. -/
def context (sc : EReal → EReal) (Q K V : SQKV.Idx → EReal) (M : SMask.Idx → BitVec 32) : SQKV.Idx → EReal :=
  fun i => rowCtx (weights sc Q K M (i 0) (i 1) (i 2)) (fun k d => V (ix4 (i 0) (i 1) k d)) (i 3)

end Cert.Attention

end
-- ==== Proof.Reference.lean ====
/-
  The reference program's two results are the attention matrix and the context array of its arguments.

  Read one operation at a time, the reference computes, at an index (b, h, q, k): the dot product of query row q with key
  row k divided by 8, the fill where the mask word at (b, 0, q, k) is zero, the row's maximum (a fold of max from
  -infinity over k, then once more the maximum with -infinity, which changes nothing), the exponential of the score's
  distance below it, that exponential over the row's sum of them; and at (b, h, q, d) the sum over k of those weights
  against the value rows.
-/
import proofs.«109617_j75342316306972_2_alg».proof.Proof.Gen.ReferenceIdeal.Read
import proofs.«109617_j75342316306972_2_alg».proof.Proof.Attention
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Cert.Attention Idealize.ShloMosaic Idealize.ShloMosaic.ValueIdx

/-! ## Where each operation reads its operands, by coordinates -/

/-- The first product's left operand at (b, h, q, k), term d, is the query entry (b, h, q, d). -/
private theorem lidx_v0 (b : Fin 2) (h : Fin 16) (q k : Fin 2048) (d : Fin 64) :
    lidx_main_v0 (ix4 b h q k) d = ix4 b h q d :=
  funext fun a => Fin.ext (by match a with | ⟨0, _⟩ => rfl | ⟨1, _⟩ => rfl | ⟨2, _⟩ => rfl | ⟨3, _⟩ => rfl)

/-- The first product's right operand at (b, h, q, k), term d, is the key entry (b, h, k, d). -/
private theorem ridx_v0 (b : Fin 2) (h : Fin 16) (q k : Fin 2048) (d : Fin 64) :
    ridx_main_v0 (ix4 b h q k) d = ix4 b h k d :=
  funext fun a => Fin.ext (by match a with | ⟨0, _⟩ => rfl | ⟨1, _⟩ => rfl | ⟨2, _⟩ => rfl | ⟨3, _⟩ => rfl)

/-- The mask is read at head 0 whatever the head. -/
private theorem idx_call0_v0 (b : Fin 2) (h : Fin 16) (q k : Fin 2048) :
    idx_main_call0_v0 (ix4 b h q k) = ix4 b (0 : Fin 1) q k :=
  funext fun a => Fin.ext (by match a with | ⟨0, _⟩ => rfl | ⟨1, _⟩ => rfl | ⟨2, _⟩ => rfl | ⟨3, _⟩ => rfl)

/-- The scores: at (b, h, q, k) the fill where the mask word is zero, else the dot product of query row q with key row k
    over the pattern of 8. -/
private theorem v5_at (x0 x1 : (⟨S2x16x2048x64, .f32⟩ : BufTy).Contents (Elt Ideal)) (x3 : (⟨S2x1x2048x2048, .i32⟩ : BufTy).Contents (Elt Ideal))
    (b : Fin 2) (h : Fin 16) (q k : Fin 2048) :
    val_main_v5 (F := Ideal) x0 x1 x3 (ix4 b h q k)
      = rowScore scaleDiv (fun d => x0 (ix4 b h q d)) (fun k d => x1 (ix4 b h k d)) (fun k => x3 (ix4 b (0 : Fin 1) q k)) k := by
  rw [val_main_v5_apply, val_main_call0_v0_apply, val_main_v4_apply, val_main_v3_apply, val_main_c_apply,
    val_main_call0_v1_apply, val_main_cst_0_apply, val_main_v2_apply, val_main_v0_apply, val_main_v1_apply, val_main_cst_apply]
  unfold rowScore scaleDiv
  simp only [Ideal.hostDivf_def, Ideal.ofBits_def, lidx_v0, ridx_v0, idx_call0_v0]

/-! ## The row maximum -/

/-- The reduced index (b, h, q) with coordinate k put back on the last axis is (b, h, q, k). -/
private theorem lift_ix3 (hR : S2x16x2048x2048.Reduces [3] S2x16x2048) (b : Fin 2) (h : Fin 16) (q : Fin 2048)
    (k : Fin (S2x16x2048x2048.size 3)) : hR.lift (ix3 b h q) k = ix4 b h q (⟨k.val, k.isLt⟩ : Fin 2048) := by
  funext c; apply Fin.ext
  fin_cases c <;> rfl

/-- The maximum with -infinity changes nothing. -/
private theorem max_neg_inf (y : EReal) : max (Ideal.ofBits .f32 0xFF800000#32) y = y := by
  rw [ofBits_neg_inf]; exact max_eq_right bot_le

/-- A maximum-reduce of an array over its last axis from -infinity is, at (b, h, q), the fold of max from -infinity
    over that row. -/
private theorem reduce_max_row (y : (⟨S2x16x2048x2048, .f32⟩ : BufTy).Contents (Elt Ideal)) (b : Fin 2) (h : Fin 16) (q : Fin 2048) :
    Host.reduce (FloatOps.maximumf (F := Ideal) (φ := .f32)) y (val_main_cst_1 (F := Ideal)) Gen.reducesTo_S2x16x2048x2048_S2x16x2048_d3 Gen.h_S_ (ix3 b h q)
      = rowMax fun k => y (ix4 b h q k) := by
  have hR : S2x16x2048x2048.Reduces [3] S2x16x2048 := by decide
  rw [Host.reduce_eq_fold_single (FloatOps.maximumf (F := Ideal) (φ := .f32)) y _ Gen.reducesTo_S2x16x2048x2048_S2x16x2048_d3 hR Gen.h_S_]
  have hf : (y ∘ hR.lift (ix3 b h q)) = fun k : Fin 2048 => y (ix4 b h q k) :=
    funext fun k => congrArg y (lift_ix3 hR b h q k)
  unfold rowMax
  exact congrArg (fun f => Finset.fold max (Ideal.ofBits .f32 0xFF800000#32) f (Finset.univ : Finset (Fin 2048))) hf

/-- The row maximum the reference subtracts: at (b, h, q) the fold of max from -infinity over the row of scores. -/
private theorem v8_at (x0 x1 : (⟨S2x16x2048x64, .f32⟩ : BufTy).Contents (Elt Ideal)) (x3 : (⟨S2x1x2048x2048, .i32⟩ : BufTy).Contents (Elt Ideal))
    (b : Fin 2) (h : Fin 16) (q : Fin 2048) :
    val_main_v8 (F := Ideal) x0 x1 x3 (ix3 b h q)
      = rowMax (rowScore scaleDiv (fun d => x0 (ix4 b h q d)) (fun k d => x1 (ix4 b h k d)) (fun k => x3 (ix4 b (0 : Fin 1) q k))) := by
  rw [val_main_v8_apply, val_main_v7_apply, val_main_cst_2_apply]
  unfold val_main_v6
  rw [reduce_max_row, Ideal.maximumf_def, Ideal.ofBits_def, max_neg_inf]
  exact congrArg rowMax (funext fun k => v5_at x0 x1 x3 b h q k)

/-! ## The exponentials, their sum, the weights -/

/-- Broadcasting a (b, h, q) array back over the last axis, in the reference's two steps, reads it at (b, h, q). -/
private theorem idx_v9_v10 (b : Fin 2) (h : Fin 16) (q k : Fin 2048) :
    idx_main_v9 (idx_main_v10 (ix4 b h q k)) = ix3 b h q :=
  funext fun a => Fin.ext (by match a with | ⟨0, _⟩ => rfl | ⟨1, _⟩ => rfl | ⟨2, _⟩ => rfl)

/-- The same for the row sums. -/
private theorem idx_v14_v15 (b : Fin 2) (h : Fin 16) (q k : Fin 2048) :
    idx_main_v14 (idx_main_v15 (ix4 b h q k)) = ix3 b h q :=
  funext fun a => Fin.ext (by match a with | ⟨0, _⟩ => rfl | ⟨1, _⟩ => rfl | ⟨2, _⟩ => rfl)

/-- The sum over the last axis reads, at (b, h, q), term k, the entry (b, h, q, k). -/
private theorem idx_v13 (b : Fin 2) (h : Fin 16) (q k : Fin 2048) :
    idx_main_v13 (ix3 b h q) k = ix4 b h q k :=
  funext fun a => Fin.ext (by match a with | ⟨0, _⟩ => rfl | ⟨1, _⟩ => rfl | ⟨2, _⟩ => rfl | ⟨3, _⟩ => rfl)

/-- The exponentials: at (b, h, q, k) the exponential of the score's distance below its row's maximum. -/
private theorem v12_at (x0 x1 : (⟨S2x16x2048x64, .f32⟩ : BufTy).Contents (Elt Ideal)) (x3 : (⟨S2x1x2048x2048, .i32⟩ : BufTy).Contents (Elt Ideal))
    (b : Fin 2) (h : Fin 16) (q k : Fin 2048) :
    val_main_v12 (F := Ideal) x0 x1 x3 (ix4 b h q k)
      = rowExp (rowScore scaleDiv (fun d => x0 (ix4 b h q d)) (fun k d => x1 (ix4 b h k d)) (fun k => x3 (ix4 b (0 : Fin 1) q k))) k := by
  rw [val_main_v12_apply, val_main_v11_apply, val_main_v10_apply, val_main_v9_apply, idx_v9_v10, v8_at, v5_at,
    Ideal.hostUnary_exp_def, Ideal.subf_def]
  rfl

/-- The row sums: at (b, h, q) the sum over k of the exponentials (the initial value is the pattern of zero). -/
private theorem v13_at (x0 x1 : (⟨S2x16x2048x64, .f32⟩ : BufTy).Contents (Elt Ideal)) (x3 : (⟨S2x1x2048x2048, .i32⟩ : BufTy).Contents (Elt Ideal))
    (b : Fin 2) (h : Fin 16) (q : Fin 2048) :
    val_main_v13 (F := Ideal) x0 x1 x3 (ix3 b h q)
      = ∑ k : Fin 2048, rowExp (rowScore scaleDiv (fun d => x0 (ix4 b h q d)) (fun k d => x1 (ix4 b h k d)) (fun k => x3 (ix4 b (0 : Fin 1) q k))) k := by
  rw [val_main_v13_apply, val_main_cst_3_apply, Ideal.ofBits_def, Ideal.ofBits_zero_f32, zero_add]
  refine Finset.sum_congr rfl fun k _ => ?_
  rw [idx_v13, v12_at]

/-- The weights: at (b, h, q, k) the exponential over its row's sum of exponentials. -/
private theorem v16_at (x0 x1 : (⟨S2x16x2048x64, .f32⟩ : BufTy).Contents (Elt Ideal)) (x3 : (⟨S2x1x2048x2048, .i32⟩ : BufTy).Contents (Elt Ideal))
    (b : Fin 2) (h : Fin 16) (q k : Fin 2048) :
    val_main_v16 (F := Ideal) x0 x1 x3 (ix4 b h q k) = weights scaleDiv x0 x1 x3 b h q k := by
  rw [val_main_v16_apply, val_main_v15_apply, val_main_v14_apply, idx_v14_v15, v13_at, v12_at, Ideal.hostDivf_def]
  rfl

/-! ## The two results -/

/-- The reference's second result is the attention matrix of its arguments, scores scaled by the quotient by 8. -/
theorem attn_eq (x0 x1 : (⟨S2x16x2048x64, .f32⟩ : BufTy).Contents (Elt Ideal)) (x3 : (⟨S2x1x2048x2048, .i32⟩ : BufTy).Contents (Elt Ideal)) :
    val_main_v16 (F := Ideal) x0 x1 x3 = attn scaleDiv x0 x1 x3 := by
  funext i
  obtain ⟨b, h, q, k, rfl⟩ : ∃ (b : Fin 2) (h : Fin 16) (q : Fin 2048) (k : Fin 2048), i = ix4 b h q k :=
    ⟨i 0, i 1, i 2, i 3, eq_ix4 i⟩
  rw [v16_at]
  rfl

/-- The second product's left operand at (b, h, q, d), term k, is the weight (b, h, q, k). -/
private theorem lidx_v17 (b : Fin 2) (h : Fin 16) (q : Fin 2048) (d : Fin 64) (k : Fin 2048) :
    lidx_main_v17 (ix4 b h q d) k = ix4 b h q k :=
  funext fun a => Fin.ext (by match a with | ⟨0, _⟩ => rfl | ⟨1, _⟩ => rfl | ⟨2, _⟩ => rfl | ⟨3, _⟩ => rfl)

/-- The second product's right operand at (b, h, q, d), term k, is the value entry (b, h, k, d). -/
private theorem ridx_v17 (b : Fin 2) (h : Fin 16) (q : Fin 2048) (d : Fin 64) (k : Fin 2048) :
    ridx_main_v17 (ix4 b h q d) k = ix4 b h k d :=
  funext fun a => Fin.ext (by match a with | ⟨0, _⟩ => rfl | ⟨1, _⟩ => rfl | ⟨2, _⟩ => rfl | ⟨3, _⟩ => rfl)

/-- The reference's first result is the context array of its arguments. -/
theorem context_eq (x0 x1 x2 : (⟨S2x16x2048x64, .f32⟩ : BufTy).Contents (Elt Ideal)) (x3 : (⟨S2x1x2048x2048, .i32⟩ : BufTy).Contents (Elt Ideal)) :
    val_main_v17 (F := Ideal) x0 x1 x2 x3 = context scaleDiv x0 x1 x2 x3 := by
  funext i
  obtain ⟨b, h, q, d, rfl⟩ : ∃ (b : Fin 2) (h : Fin 16) (q : Fin 2048) (d : Fin 64), i = ix4 b h q d :=
    ⟨i 0, i 1, i 2, i 3, eq_ix4 i⟩
  rw [val_main_v17_apply]
  unfold context rowCtx
  refine Finset.sum_congr rfl fun k _ => ?_
  rw [lidx_v17, ridx_v17, v16_at]

end Cert.ReferenceIdeal.RefValue

end
-- ==== Proof.KernelBlock.lean ====
/-
  The kernel body's two stored values, read at an index of a block.

  For the blocks the body loads at a grid point - a block of 512 query rows, the 2048 key rows, the 2048 value
  rows and a block of 512 mask rows - the value stored to the attention window is, at row r and column k, the
  softmax weight k of query row r (scores scaled by the product with 1/8), and the value stored to the context
  window is, at row r and column d, the weighted sum over k of the weights of row r against column d of the values.

  The body's arithmetic is a tree of whole-block operations. Read at an index: a change of float format is the
  identity; a cast between [1, 1, a, b] and [a, b] keeps the last two coordinates; the transpose swaps them; each
  matrix product into a zero accumulator is the sum over the contracted axis of the products; the row maximum is the
  fold of max from -infinity over the row and the row sum the sum over the row, each laid back as a column and
  repeated along the row; everything else acts entry by entry.
-/
import proofs.«109617_j75342316306972_2_alg».proof.Proof.Gen.KernelIdeal.Skeleton
import proofs.«109617_j75342316306972_2_alg».proof.Proof.Attention
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Cert.Attention Idealize.ShloMosaic Idealize.ShloMosaic.ValueIdx

/-! ## Layout operations at an index -/

section Layout
variable {α : Type}

/-- A [1, 1, a, b] block cast to [a, b] reads, at (i, j), the block at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] matrix cast to [1, 1, a, b] reads, at (0, 0, i, j), the matrix at (i, j). -/
theorem shapeCast_ab_11ab_apply {a b : ℕ} (x : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ x h (ix4 (0 : Fin 1) (0 : Fin 1) i j) = x (ix2 i j) :=
  shapeCast_apply x h _ _ (by
    rw [Shape.rowMajor_val_two, Shape.rowMajor_val_four]
    show i.val * b + j.val = ((0 * 1 + 0) * a + i.val) * b + j.val
    simp only [Nat.zero_mul, Nat.zero_add])

/-- A vector of a entries laid as a column [a, 1] and repeated along b columns reads, at (i, j), entry i. -/
theorem column_apply {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ v h1) h2 (ix2 i j) = v (ix1 i) := by
  refine (broadcastTo_apply _ h2 (ix2 i j) (ix2 i (0 : Fin 1)) fun c => ?_).trans ?_
  · match c with
    | ⟨0, _⟩ =>
      show i.val = if a = 1 then 0 else i.val
      split
      · have := i.isLt; omega
      · rfl
    | ⟨1, _⟩ => show 0 = if (1 : ℕ) = 1 then 0 else j.val; rw [if_pos rfl]
  · exact shapeCast_apply v h1 _ _ (by
      rw [Shape.rowMajor_val_one, Shape.rowMajor_val_two]
      show i.val = i.val * 1 + 0
      omega)

end Layout

/-! ## A row's reductions -/

/-- The reduced index r with the column k put back is (r, k). -/
theorem lift_row (h : S512x2048.Reduces [1] S512) (r : Fin 512) (k : Fin 2048) : h.lift (ix1 r) k = ix2 r k := by
  funext c; apply Fin.ext
  match c with
  | ⟨0, _⟩ => rfl
  | ⟨1, _⟩ => rfl

/-- The maximum over the columns, from -infinity, at row r is the row's maximum. -/
theorem reduceMax_apply (s : FVec Ideal S512x2048 .f32) (h : S512x2048.Reduces [1] S512) (hφ : FKind.Formats .f32)
    (hacc : (0xFF800000#32 : BitVec 32) = FKind.maximumf.neutral .f32 hφ) (r : Fin 512) :
    multiReduction .maximumf [1] S512 s 0xFF800000#32 h hφ hacc (ix1 r) = rowMax (fun k => s (ix2 r k)) := by
  refine (Ideal.multiReduction_maximumf_single s _ h hφ hacc (ix1 r)).trans ?_
  have hf : (s ∘ h.lift (ix1 r)) = fun k : Fin 2048 => s (ix2 r k) := funext fun k => congrArg s (lift_row h r k)
  exact congrArg (fun f => Finset.fold max (Ideal.ofBits .f32 0xFF800000#32) f (Finset.univ : Finset (Fin 2048))) hf

/-- The sum over the columns at row r is the row's sum. -/
theorem reduceAdd_apply (e : FVec Ideal S512x2048 .f32) (h : S512x2048.Reduces [1] S512) (hφ : FKind.Formats .f32)
    (hacc : (0x00000000#32 : BitVec 32) = FKind.add.neutral .f32 hφ) (r : Fin 512) :
    multiReduction .add [1] S512 e 0x00000000#32 h hφ hacc (ix1 r) = ∑ k : Fin 2048, e (ix2 r k) := by
  refine (Ideal.multiReduction_add_single e _ h hφ hacc (ix1 r)).trans ?_
  exact Finset.sum_congr rfl fun k _ => congrArg e (lift_row h r k)

/-! ## The two matrix products

Each reads, at an output index, as the sum over the one contracted axis of the products of the operands' entries: the
output's row coordinate goes to the left operand's row, its column coordinate to the right operand's column, and the
contracted coordinate to the left's column and the right's row. -/

theorem scoreDot_lhs0 (i : S512x2048.Idx) (q : dot_S512x64_S64x2048_S512x2048_1_0_0_1_n_n.contr.Idx) : (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem scoreDot_lhs1 (i : S512x2048.Idx) (q : dot_S512x64_S64x2048_S512x2048_1_0_0_1_n_n.contr.Idx) : (dot_S512x64_S64x2048_S512x2048_1_0_0_1_n_n.lhsIdx i q 1).val = (q ⟨0, by decide⟩).val :=
  dot_S512x64_S64x2048_S512x2048_1_0_0_1_n_n.lhsIdx_val_of_single rfl i q
theorem scoreDot_rhs0 (i : S512x2048.Idx) (q : dot_S512x64_S64x2048_S512x2048_1_0_0_1_n_n.contr.Idx) : (dot_S512x64_S64x2048_S512x2048_1_0_0_1_n_n.rhsIdx i q 0).val = (q ⟨0, by decide⟩).val :=
  dot_S512x64_S64x2048_S512x2048_1_0_0_1_n_n.rhsIdx_val_of_single rfl i q
theorem scoreDot_rhs1 (i : S512x2048.Idx) (q : dot_S512x64_S64x2048_S512x2048_1_0_0_1_n_n.contr.Idx) : (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

theorem ctxDot_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem ctxDot_lhs1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem ctxDot_rhs0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem ctxDot_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Query rows against transposed key rows: entry (r, k) is the sum over d of l (r, d) * rt (d, k). -/
theorem scoreDot_apply (l : FVec Ideal S512x64 .bf16) (rt : FVec Ideal S64x2048 .bf16) (r : Fin 512) (k : Fin 2048) :
    matmul dot_S512x64_S64x2048_S512x2048_1_0_0_1_n_n none l rt (constant S512x2048 .f32 0x00000000#32) (ix2 r k)
      = ∑ d : Fin 64, l (ix2 r d) * rt (ix2 d k) := by
  simp only [matmul]
  rw [Ideal.matmul_constant_zero_apply, ← Equiv.sum_comp (ValueIdx.contrEquiv1 dot_S512x64_S64x2048_S512x2048_1_0_0_1_n_n 64 rfl rfl).symm]
  refine Finset.sum_congr rfl fun d _ => ?_
  have hq := ValueIdx.contrEquiv1_symm_val dot_S512x64_S64x2048_S512x2048_1_0_0_1_n_n 64 rfl rfl d
  have el : dot_S512x64_S64x2048_S512x2048_1_0_0_1_n_n.lhsIdx (ix2 r k) ((ValueIdx.contrEquiv1 dot_S512x64_S64x2048_S512x2048_1_0_0_1_n_n 64 rfl rfl).symm d) = ix2 r d := funext fun a => Fin.ext (by
    match a with
    | ⟨0, _⟩ => exact scoreDot_lhs0 _ _
    | ⟨1, _⟩ => exact (scoreDot_lhs1 _ _).trans hq)
  have er : dot_S512x64_S64x2048_S512x2048_1_0_0_1_n_n.rhsIdx (ix2 r k) ((ValueIdx.contrEquiv1 dot_S512x64_S64x2048_S512x2048_1_0_0_1_n_n 64 rfl rfl).symm d) = ix2 d k := funext fun a => Fin.ext (by
    match a with
    | ⟨0, _⟩ => exact (scoreDot_rhs0 _ _).trans hq
    | ⟨1, _⟩ => exact scoreDot_rhs1 _ _)
  rw [el, er]

/-- Weights against value rows: entry (r, d) is the sum over k of l (r, k) * v (k, d). -/
theorem ctxDot_apply (l : FVec Ideal S512x2048 .bf16) (v : FVec Ideal S2048x64 .bf16) (r : Fin 512) (d : Fin 64) :
    matmul dot_S512x2048_S2048x64_S512x64_1_0_0_1_n_n none l v (constant S512x64 .f32 0x00000000#32) (ix2 r d)
      = ∑ k : Fin 2048, l (ix2 r k) * v (ix2 k d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hq := ValueIdx.contrEquiv1_symm_val dot_S512x2048_S2048x64_S512x64_1_0_0_1_n_n 2048 rfl rfl k
  have el : dot_S512x2048_S2048x64_S512x64_1_0_0_1_n_n.lhsIdx (ix2 r d) ((ValueIdx.contrEquiv1 dot_S512x2048_S2048x64_S512x64_1_0_0_1_n_n 2048 rfl rfl).symm k) = ix2 r k := funext fun a => Fin.ext (by
    match a with
    | ⟨0, _⟩ => exact ctxDot_lhs0 _ _
    | ⟨1, _⟩ => exact (ctxDot_lhs1 _ _).trans hq)
  have er : dot_S512x2048_S2048x64_S512x64_1_0_0_1_n_n.rhsIdx (ix2 r d) ((ValueIdx.contrEquiv1 dot_S512x2048_S2048x64_S512x64_1_0_0_1_n_n 2048 rfl rfl).symm k) = ix2 k d := funext fun a => Fin.ext (by
    match a with
    | ⟨0, _⟩ => exact (ctxDot_rhs0 _ _).trans hq
    | ⟨1, _⟩ => exact ctxDot_rhs1 _ _)
  rw [el, er]

/-! ## The attention block -/

/-- The masked, scaled scores of the loaded blocks: the body's value before the softmax. -/
def scoreVec (P0 : Vec Ideal S1x1x512x64 .f32) (P1 : Vec Ideal S1x1x2048x64 .f32) (P3 : Vec Ideal S1x1x512x2048 .i32) :
    FVec Ideal S512x2048 .f32 :=
  select (cmpi .eq (shapeCast S512x2048 P3 shapeCasts_S1x1x512x2048_S512x2048) (broadcast S512x2048 0#32))
    (broadcast S512x2048 (Scalar.ofBits (F := Ideal) .f32 0xCE6E6B28#32))
    (mulf (matmul dot_S512x64_S64x2048_S512x2048_1_0_0_1_n_n none
        (truncf .bf16 (shapeCast S512x64 P0 shapeCasts_S1x1x512x64_S512x64) bitsLt_bf16_f32)
        (transpose S64x2048 [1, 0] (truncf .bf16 (shapeCast S2048x64 P1 shapeCasts_S1x1x2048x64_S2048x64) bitsLt_bf16_f32)
          transposes_S2048x64_p1_0_S64x2048)
        (constant S512x2048 .f32 0x00000000#32))
      (broadcast S512x2048 (Scalar.ofBits (F := Ideal) .f32 0x3E000000#32)))

/-- The exponentials of a score block's distances below its rows' maxima. -/
def expVec (s : FVec Ideal S512x2048 .f32) : FVec Ideal S512x2048 .f32 :=
  exp (subf s (broadcastTo S512x2048
    (shapeCast S512x1 (multiReduction .maximumf [1] S512 s 0xFF800000#32 reduces_S512x2048_S512 (.inl rfl) rfl) shapeCasts_S512_S512x1)
    broadcasts_S512x1_S512x2048))

/-- The softmax of a score block along its rows. -/
def softmaxVec (s : FVec Ideal S512x2048 .f32) : FVec Ideal S512x2048 .f32 :=
  divf (expVec s) (broadcastTo S512x2048
    (shapeCast S512x1 (multiReduction .add [1] S512 (expVec s) 0x00000000#32 reduces_S512x2048_S512 (.inl rfl) rfl) shapeCasts_S512_S512x1)
    broadcasts_S512x1_S512x2048)

/-- The body's attention value is the softmax of the scores. -/
theorem pay3_eq (P0 : Vec Ideal S1x1x512x64 .f32) (P1 : Vec Ideal S1x1x2048x64 .f32) (P3 : Vec Ideal S1x1x512x2048 .i32) :
    k0_pay3 (F := Ideal) P0 P1 P3 = softmaxVec (scoreVec P0 P1 P3) := rfl

/-- The score at (r, k): the fill where the mask word at (r, k) is zero, else the dot product of query row r with key
    row k, times the pattern of 0.125. -/
theorem scoreVec_apply (P0 : Vec Ideal S1x1x512x64 .f32) (P1 : Vec Ideal S1x1x2048x64 .f32) (P3 : Vec Ideal S1x1x512x2048 .i32)
    (r : Fin 512) (k : Fin 2048) :
    scoreVec P0 P1 P3 (ix2 r k)
      = rowScore scaleMul (fun d => P0 (ix4 (0 : Fin 1) (0 : Fin 1) r d))
          (fun k' d => P1 (ix4 (0 : Fin 1) (0 : Fin 1) k' d)) (fun k' => P3 (ix4 (0 : Fin 1) (0 : Fin 1) r k')) k := by
  have hm : shapeCast S512x2048 P3 shapeCasts_S1x1x512x2048_S512x2048 (ix2 r k) = P3 (ix4 (0 : Fin 1) (0 : Fin 1) r k) :=
    shapeCast_11ab_ab_apply P3 _ r k
  have hd : matmul (F := Ideal) dot_S512x64_S64x2048_S512x2048_1_0_0_1_n_n none
        (truncf .bf16 (shapeCast S512x64 P0 shapeCasts_S1x1x512x64_S512x64) bitsLt_bf16_f32)
        (transpose S64x2048 [1, 0] (truncf .bf16 (shapeCast S2048x64 P1 shapeCasts_S1x1x2048x64_S2048x64) bitsLt_bf16_f32)
          transposes_S2048x64_p1_0_S64x2048)
        (constant S512x2048 .f32 0x00000000#32) (ix2 r k)
      = ∑ d : Fin 64, P0 (ix4 (0 : Fin 1) (0 : Fin 1) r d) * P1 (ix4 (0 : Fin 1) (0 : Fin 1) k d) := by
    refine (scoreDot_apply _ _ r k).trans (Finset.sum_congr rfl fun d _ => ?_)
    have h1 : shapeCast S512x64 P0 shapeCasts_S1x1x512x64_S512x64 (ix2 r d) = P0 (ix4 (0 : Fin 1) (0 : Fin 1) r d) :=
      shapeCast_11ab_ab_apply P0 _ r d
    have h2 : transpose S64x2048 [1, 0] (shapeCast S2048x64 P1 shapeCasts_S1x1x2048x64_S2048x64)
          transposes_S2048x64_p1_0_S64x2048 (ix2 d k) = P1 (ix4 (0 : Fin 1) (0 : Fin 1) k d) :=
      (transpose_ix2_apply _ _ d k).trans (shapeCast_11ab_ab_apply P1 _ k d)
    exact congrArg₂ (· * ·) h1 h2
  exact congrArg₂ (fun (c : BitVec 32) (x : EReal) =>
    Scalar.select (IntOp.cmpi .eq c 0#32) (Ideal.ofBits .f32 0xCE6E6B28#32) (x * Ideal.ofBits .f32 0x3E000000#32)) hm hd

/-- The exponential at (r, k) is the exponential of score k's distance below row r's maximum. -/
theorem expVec_apply (s : FVec Ideal S512x2048 .f32) (r : Fin 512) (k : Fin 2048) :
    expVec s (ix2 r k) = rowExp (fun k' => s (ix2 r k')) k := by
  have hc := column_apply (multiReduction .maximumf [1] S512 s 0xFF800000#32 reduces_S512x2048_S512 (.inl rfl) rfl)
    shapeCasts_S512_S512x1 broadcasts_S512x1_S512x2048 r k
  have hmx := reduceMax_apply s reduces_S512x2048_S512 (.inl rfl) rfl r
  exact congrArg (fun x : EReal => Ideal.exp (s (ix2 r k) - x)) (hc.trans hmx)

/-- The softmax at (r, k) is weight k of row r. -/
theorem softmaxVec_apply (s : FVec Ideal S512x2048 .f32) (r : Fin 512) (k : Fin 2048) :
    softmaxVec s (ix2 r k) = rowSoftmax (fun k' => s (ix2 r k')) k := by
  have hc := column_apply (multiReduction .add [1] S512 (expVec s) 0x00000000#32 reduces_S512x2048_S512 (.inl rfl) rfl)
    shapeCasts_S512_S512x1 broadcasts_S512x1_S512x2048 r k
  have hs := reduceAdd_apply (expVec s) reduces_S512x2048_S512 (.inl rfl) rfl r
  have hsum : (∑ k' : Fin 2048, expVec s (ix2 r k')) = ∑ k' : Fin 2048, rowExp (fun k'' => s (ix2 r k'')) k' :=
    Finset.sum_congr rfl fun k' _ => expVec_apply s r k'
  exact congrArg₂ Ideal.div (expVec_apply s r k) (hc.trans (hs.trans hsum))

/-- The attention block at (r, k): the softmax weight k of query row r of the loaded blocks. -/
theorem attnBlock_apply (P0 : Vec Ideal S1x1x512x64 .f32) (P1 : Vec Ideal S1x1x2048x64 .f32) (P3 : Vec Ideal S1x1x512x2048 .i32)
    (r : Fin 512) (k : Fin 2048) :
    k0_pay3 (F := Ideal) P0 P1 P3 (ix2 r k)
      = rowSoftmax (rowScore scaleMul (fun d => P0 (ix4 (0 : Fin 1) (0 : Fin 1) r d))
          (fun k' d => P1 (ix4 (0 : Fin 1) (0 : Fin 1) k' d)) (fun k' => P3 (ix4 (0 : Fin 1) (0 : Fin 1) r k'))) k := by
  rw [pay3_eq]
  refine (softmaxVec_apply _ r k).trans ?_
  exact congrArg (fun s => rowSoftmax s k) (funext fun k' => scoreVec_apply P0 P1 P3 r k')

/-! ## The context block -/

/-- The context block at (0, 0, r, d): the sum over k of the weights' row r against column d of the value block. -/
theorem ctxBlock_apply (P2 : Vec Ideal S1x1x2048x64 .f32) (A : FVec Ideal S512x2048 .f32) (r : Fin 512) (d : Fin 64) :
    k0_pay1 (F := Ideal) (k0_pay2 P2) A (ix4 (0 : Fin 1) (0 : Fin 1) r d)
      = rowCtx (fun k => A (ix2 r k)) (fun k d' => P2 (ix4 (0 : Fin 1) (0 : Fin 1) k d')) d := by
  show shapeCast S1x1x512x64 (matmul dot_S512x2048_S2048x64_S512x64_1_0_0_1_n_n none (truncf .bf16 A bitsLt_bf16_f32)
      (truncf .bf16 (shapeCast S2048x64 P2 shapeCasts_S1x1x2048x64_S2048x64) bitsLt_bf16_f32) (constant S512x64 .f32 0x00000000#32))
      shapeCasts_S512x64_S1x1x512x64 (ix4 (0 : Fin 1) (0 : Fin 1) r d) = _
  refine (shapeCast_ab_11ab_apply _ _ r d).trans ?_
  refine (ctxDot_apply _ _ r d).trans ?_
  exact Finset.sum_congr rfl fun k _ => congrArg (A (ix2 r k) * ·) (shapeCast_11ab_ab_apply P2 _ k d)

end Cert.KernelIdeal.Block

end
-- ==== Proof.KernelArray.lean ====
/-
  From blocks to arrays: after the kernel's run its two result arrays are the context array and the attention
  matrix of the argument arrays.

  The grid's point (b, qi, h) loads query rows qi*512 .. qi*512+511 of head h of batch entry b, all key and value
  rows of that head, and the same query rows of the mask (which has no head axis), and writes back rows
  qi*512 .. qi*512+511 of the two results for that head. Every index of either result lies in exactly the block of
  the point (b, q / 512, h), so the blocks cover the arrays, and what each point writes is the block of the
  whole-array function there.
-/
import proofs.«109617_j75342316306972_2_alg».proof.Proof.Gen.KernelIdeal.Value
import proofs.«109617_j75342316306972_2_alg».proof.Proof.KernelBlock
import proofs.«109617_j75342316306972_2_alg».proof.Proof.Attention

noncomputable section

namespace Cert.KernelIdeal.ArrayValue

open Cert.KernelIdeal Cert.KernelIdeal.Gen Cert.Attention Idealize.ShloMosaic Idealize.ShloMosaic.TcCoe Idealize.SL.Sem
open Idealize.ShloMosaic.ValueIdx
open Idealize.ShloMosaic.Pipeline (Dat)

/-! ## The index maps, decided over the 128 points -/

/-- The whole-block rectangle's offsets are zero on every axis. -/
theorem zeros4 : (![0, 0, 0, 0] : Fin 4 → Nat) = fun _ => 0 := funext fun a => by fin_cases a <;> rfl

/-- At every point the attention window's block index is (batch entry, head, query block, 0) with the batch entry
    below 2, the head below 16 and the query block below 4; the query and context windows sit at the same block
    index, the key and value windows at (batch entry, head, 0, 0), and the mask window, which has no head axis, at
    (batch entry, 0, query block, 0). -/
theorem idx_facts : ∀ t : Fin cfg0.N,
    win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = 0
    ∧ win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0
    ∧ win0_2.index t (0 : Fin 4) = win0_5.index t (0 : Fin 4) ∧ win0_2.index t (1 : Fin 4) = win0_5.index t (1 : Fin 4)
    ∧ win0_2.index t (2 : Fin 4) = 0 ∧ win0_2.index t (3 : Fin 4) = 0
    ∧ win0_3.index t (0 : Fin 4) = win0_5.index t (0 : Fin 4) ∧ win0_3.index t (1 : Fin 4) = 0
    ∧ win0_3.index t (2 : Fin 4) = win0_5.index t (2 : Fin 4) ∧ win0_3.index t (3 : Fin 4) = 0
    ∧ win0_4.index t (0 : Fin 4) = win0_5.index t (0 : Fin 4) ∧ win0_4.index t (1 : Fin 4) = win0_5.index t (1 : Fin 4)
    ∧ win0_4.index t (2 : Fin 4) = win0_5.index t (2 : Fin 4) ∧ win0_4.index t (3 : Fin 4) = 0
    ∧ win0_5.index t (0 : Fin 4) ≤ 1 ∧ win0_5.index t (1 : Fin 4) ≤ 15
    ∧ win0_5.index t (2 : Fin 4) ≤ 3 ∧ win0_5.index t (3 : Fin 4) = 0 :=
  (by decide +kernel : ∀ t : Fin grid0.N, _)

/-- Every (batch entry, head, query block) is some point's block index. -/
theorem idx_onto : ∀ (b : Fin 2) (h : Fin 16) (qi : Fin 4), ∃ t : Fin cfg0.N, win0_5.index t = ![b.val, h.val, qi.val, 0] :=
  (by decide +kernel : ∀ (b : Fin 2) (h : Fin 16) (qi : Fin 4), ∃ t : Fin grid0.N, win0_5.index t = ![b.val, h.val, qi.val, 0])

/-- The batch entry point t works on. -/
def batchOf (t : Fin cfg0.N) : Fin 2 := ⟨win0_5.index t (0 : Fin 4), by have h := (idx_facts t).2.2.2.2.2.2.2.2.2.2.2.2.2.2.2.2.2.2.2.2.1; omega⟩

/-- The head point t works on. -/
def headOf (t : Fin cfg0.N) : Fin 16 := ⟨win0_5.index t (1 : Fin 4), by have h := (idx_facts t).2.2.2.2.2.2.2.2.2.2.2.2.2.2.2.2.2.2.2.2.2.1; omega⟩

/-- The query row of the arrays that row r of point t's query block is. -/
def rowOf (t : Fin cfg0.N) (r : Fin 512) : Fin 2048 :=
  ⟨win0_5.index t (2 : Fin 4) * 512 + r.val, by have h := (idx_facts t).2.2.2.2.2.2.2.2.2.2.2.2.2.2.2.2.2.2.2.2.2.2.1; have hr := r.isLt; omega⟩

/-! ## Where each block's elements sit in its array -/

/-- Row r, column d of point t's query block is row (rowOf t r), column d of its head of its batch entry. -/
theorem emb0 (t : Fin cfg0.N) (r : Fin 512) (d : Fin 64) :
    (((cfg0.win 0).blk t).view.emb (ix4 (0 : Fin 1) (0 : Fin 1) r d) : S2x16x2048x64.Idx) = ix4 (batchOf t) (headOf t) (rowOf t r) d := by
  obtain ⟨e00, e01, e02, e03, -⟩ := idx_facts t
  funext a; apply Fin.ext
  match a with
  | ⟨0, _⟩ => show win0_0.index t (0 : Fin 4) * 1 + 1 * 0 = win0_5.index t (0 : Fin 4); omega
  | ⟨1, _⟩ => show win0_0.index t (1 : Fin 4) * 1 + 1 * 0 = win0_5.index t (1 : Fin 4); omega
  | ⟨2, _⟩ => show win0_0.index t (2 : Fin 4) * 512 + 1 * r.val = win0_5.index t (2 : Fin 4) * 512 + r.val; omega
  | ⟨3, _⟩ => show win0_0.index t (3 : Fin 4) * 64 + 1 * d.val = d.val; omega

/-- Row k, column d of point t's key block is row k, column d of its head of its batch entry. -/
theorem emb1 (t : Fin cfg0.N) (k : Fin 2048) (d : Fin 64) :
    (((cfg0.win 1).blk t).view.emb (ix4 (0 : Fin 1) (0 : Fin 1) k d) : S2x16x2048x64.Idx) = ix4 (batchOf t) (headOf t) k d := by
  obtain ⟨-, -, -, -, e10, e11, e12, e13, -⟩ := idx_facts t
  funext a; apply Fin.ext
  match a with
  | ⟨0, _⟩ => show win0_1.index t (0 : Fin 4) * 1 + 1 * 0 = win0_5.index t (0 : Fin 4); omega
  | ⟨1, _⟩ => show win0_1.index t (1 : Fin 4) * 1 + 1 * 0 = win0_5.index t (1 : Fin 4); omega
  | ⟨2, _⟩ => show win0_1.index t (2 : Fin 4) * 2048 + 1 * k.val = k.val; omega
  | ⟨3, _⟩ => show win0_1.index t (3 : Fin 4) * 64 + 1 * d.val = d.val; omega

/-- Row k, column d of point t's value block is row k, column d of its head of its batch entry. -/
theorem emb2 (t : Fin cfg0.N) (k : Fin 2048) (d : Fin 64) :
    (((cfg0.win 2).blk t).view.emb (ix4 (0 : Fin 1) (0 : Fin 1) k d) : S2x16x2048x64.Idx) = ix4 (batchOf t) (headOf t) k d := by
  obtain ⟨-, -, -, -, -, -, -, -, e20, e21, e22, e23, -⟩ := idx_facts t
  funext a; apply Fin.ext
  match a with
  | ⟨0, _⟩ => show win0_2.index t (0 : Fin 4) * 1 + 1 * 0 = win0_5.index t (0 : Fin 4); omega
  | ⟨1, _⟩ => show win0_2.index t (1 : Fin 4) * 1 + 1 * 0 = win0_5.index t (1 : Fin 4); omega
  | ⟨2, _⟩ => show win0_2.index t (2 : Fin 4) * 2048 + 1 * k.val = k.val; omega
  | ⟨3, _⟩ => show win0_2.index t (3 : Fin 4) * 64 + 1 * d.val = d.val; omega

/-- Row r, column k of point t's mask block is row (rowOf t r), column k of its batch entry's one mask. -/
theorem emb3 (t : Fin cfg0.N) (r : Fin 512) (k : Fin 2048) :
    (((cfg0.win 3).blk t).view.emb (ix4 (0 : Fin 1) (0 : Fin 1) r k) : S2x1x2048x2048.Idx) = ix4 (batchOf t) (0 : Fin 1) (rowOf t r) k := by
  obtain ⟨-, -, -, -, -, -, -, -, -, -, -, -, e30, e31, e32, e33, -⟩ := idx_facts t
  funext a; apply Fin.ext
  match a with
  | ⟨0, _⟩ => show win0_3.index t (0 : Fin 4) * 1 + 1 * 0 = win0_5.index t (0 : Fin 4); omega
  | ⟨1, _⟩ => show win0_3.index t (1 : Fin 4) * 1 + 1 * 0 = 0; omega
  | ⟨2, _⟩ => show win0_3.index t (2 : Fin 4) * 512 + 1 * r.val = win0_5.index t (2 : Fin 4) * 512 + r.val; omega
  | ⟨3, _⟩ => show win0_3.index t (3 : Fin 4) * 2048 + 1 * k.val = k.val; omega

/-- Row r, column d of point t's context block is row (rowOf t r), column d of its head of its batch entry. -/
theorem emb4 (t : Fin cfg0.N) (j0 j1 : Fin 1) (r : Fin 512) (d : Fin 64) :
    (((cfg0.win 4).blk t).view.emb (ix4 j0 j1 r d) : S2x16x2048x64.Idx) = ix4 (batchOf t) (headOf t) (rowOf t r) d := by
  obtain ⟨-, -, -, -, -, -, -, -, -, -, -, -, -, -, -, -, e40, e41, e42, e43, -⟩ := idx_facts t
  have h0 := j0.isLt; have h1 := j1.isLt
  funext a; apply Fin.ext
  match a with
  | ⟨0, _⟩ => show win0_4.index t (0 : Fin 4) * 1 + 1 * j0.val = win0_5.index t (0 : Fin 4); omega
  | ⟨1, _⟩ => show win0_4.index t (1 : Fin 4) * 1 + 1 * j1.val = win0_5.index t (1 : Fin 4); omega
  | ⟨2, _⟩ => show win0_4.index t (2 : Fin 4) * 512 + 1 * r.val = win0_5.index t (2 : Fin 4) * 512 + r.val; omega
  | ⟨3, _⟩ => show win0_4.index t (3 : Fin 4) * 64 + 1 * d.val = d.val; omega

/-- Row r, column k of point t's attention block is row (rowOf t r), column k of its head of its batch entry. -/
theorem emb5 (t : Fin cfg0.N) (j0 j1 : Fin 1) (r : Fin 512) (k : Fin 2048) :
    (((cfg0.win 5).blk t).view.emb (ix4 j0 j1 r k) : S2x16x2048x2048.Idx) = ix4 (batchOf t) (headOf t) (rowOf t r) k := by
  have e53 := (idx_facts t).2.2.2.2.2.2.2.2.2.2.2.2.2.2.2.2.2.2.2.2.2.2.2
  have h0 := j0.isLt; have h1 := j1.isLt
  funext a; apply Fin.ext
  match a with
  | ⟨0, _⟩ => show win0_5.index t (0 : Fin 4) * 1 + 1 * j0.val = win0_5.index t (0 : Fin 4); omega
  | ⟨1, _⟩ => show win0_5.index t (1 : Fin 4) * 1 + 1 * j1.val = win0_5.index t (1 : Fin 4); omega
  | ⟨2, _⟩ => show win0_5.index t (2 : Fin 4) * 512 + 1 * r.val = win0_5.index t (2 : Fin 4) * 512 + r.val; omega
  | ⟨3, _⟩ => show win0_5.index t (3 : Fin 4) * 2048 + 1 * k.val = k.val; omega

/-! ## What the body stores, over any blocks -/

/-- The attention window's buffer after the body, at row r and column k: softmax weight k of query row r. -/
theorem out5_apply (x0 : Vec Ideal S1x1x512x64 .f32) (x1 : Vec Ideal S1x1x2048x64 .f32) (x2 : Vec Ideal S1x1x2048x64 .f32)
    (x3 : Vec Ideal S1x1x512x2048 .i32) (j0 j1 : Fin 1) (r : Fin 512) (k : Fin 2048) :
    out0_5 (F := Ideal) x0 x1 x2 x3 (ix4 j0 j1 r k)
      = rowSoftmax (rowScore scaleMul (fun d => x0 (ix4 (0 : Fin 1) (0 : Fin 1) r d))
          (fun k' d => x1 (ix4 (0 : Fin 1) (0 : Fin 1) k' d)) (fun k' => x3 (ix4 (0 : Fin 1) (0 : Fin 1) r k'))) k := by
  unfold out0_5
  simp only [View.ld_unit_zero (S := S1x1x512x64) zeros4, View.ld_unit_zero (S := S1x1x2048x64) zeros4,
    View.ld_unit_zero (S := S1x1x512x2048) zeros4]
  refine (Cert.KernelIdeal.Value.canon5_eq x0 x1 x3 (ix4 j0 j1 r k)).trans ?_
  exact Cert.KernelIdeal.Block.attnBlock_apply x0 x1 x3 r k

/-- The context window's buffer after the body, at row r and column d: the weights of query row r against column d
    of the values. -/
theorem out4_apply (x0 : Vec Ideal S1x1x512x64 .f32) (x1 : Vec Ideal S1x1x2048x64 .f32) (x2 : Vec Ideal S1x1x2048x64 .f32)
    (x3 : Vec Ideal S1x1x512x2048 .i32) (j0 j1 : Fin 1) (r : Fin 512) (d : Fin 64) :
    out0_4 (F := Ideal) x0 x1 x2 x3 (ix4 j0 j1 r d)
      = rowCtx (rowSoftmax (rowScore scaleMul (fun d' => x0 (ix4 (0 : Fin 1) (0 : Fin 1) r d'))
          (fun k' d' => x1 (ix4 (0 : Fin 1) (0 : Fin 1) k' d')) (fun k' => x3 (ix4 (0 : Fin 1) (0 : Fin 1) r k'))))
          (fun k d' => x2 (ix4 (0 : Fin 1) (0 : Fin 1) k d')) d := by
  obtain rfl : j0 = 0 := Subsingleton.elim _ _
  obtain rfl : j1 = 0 := Subsingleton.elim _ _
  unfold out0_4
  rw [View.canon_unit_zero zeros4]
  simp only [View.ld_unit_zero (S := S1x1x512x64) zeros4, View.ld_unit_zero (S := S1x1x2048x64) zeros4,
    View.ld_unit_zero (S := S1x1x512x2048) zeros4]
  refine (Cert.KernelIdeal.Block.ctxBlock_apply x2 (k0_pay3 x0 x1 x3) r d).trans ?_
  exact congrArg (fun w => rowCtx w (fun k d' => x2 (ix4 (0 : Fin 1) (0 : Fin 1) k d')) d)
    (funext fun k => Cert.KernelIdeal.Block.attnBlock_apply x0 x1 x3 r k)

variable (m : (ℓ : Loc nD τ sig) → Buf (Elt Ideal) ℓ) (ρ : Dev nD → PrngReg)

/-! ## What each point writes back is its block of the whole-array function -/

/-- The query row, the keys and the mask row that point t's blocks hold for its row r are those of the arrays at
    (batchOf t, headOf t, rowOf t r). -/
theorem score_blocks (c : Dev nD) (t : Fin cfg0.N) (r : Fin 512) :
    rowScore scaleMul (fun d => iblk m c 0 t (ix4 (0 : Fin 1) (0 : Fin 1) r d))
        (fun k' d => iblk m c 1 t (ix4 (0 : Fin 1) (0 : Fin 1) k' d)) (fun k' => iblk m c 3 t (ix4 (0 : Fin 1) (0 : Fin 1) r k'))
      = rowScore scaleMul (fun d => V m c main_arg0 (ix4 (batchOf t) (headOf t) (rowOf t r) d))
        (fun k' d => V m c main_arg1 (ix4 (batchOf t) (headOf t) k' d)) (fun k' => V m c main_arg3 (ix4 (batchOf t) (0 : Fin 1) (rowOf t r) k')) := by
  have e0 : (fun d => iblk m c 0 t (ix4 (0 : Fin 1) (0 : Fin 1) r d)) = fun d => V m c main_arg0 (ix4 (batchOf t) (headOf t) (rowOf t r) d) :=
    funext fun d => congrArg (V m c main_arg0) (emb0 t r d)
  have e1 : (fun k' d => iblk m c 1 t (ix4 (0 : Fin 1) (0 : Fin 1) k' d)) = fun k' d => V m c main_arg1 (ix4 (batchOf t) (headOf t) k' d) :=
    funext fun k' => funext fun d => congrArg (V m c main_arg1) (emb1 t k' d)
  have e3 : (fun k' => iblk m c 3 t (ix4 (0 : Fin 1) (0 : Fin 1) r k')) = fun k' => V m c main_arg3 (ix4 (batchOf t) (0 : Fin 1) (rowOf t r) k') :=
    funext fun k' => congrArg (V m c main_arg3) (emb3 t r k')
  rw [e0, e1, e3]

/-- What point t writes back to the attention window is its block of the attention matrix. -/
theorem flushed5_eq (c : Dev nD) (t : Fin cfg0.N) :
    (dats m 0 c).flushed 5 t
      = ((cfg0.win 5).blk t).view.read (Elt Ideal) (attn scaleMul (V m c main_arg0) (V m c main_arg1) (V m c main_arg3)) := by
  rw [Cert.KernelIdeal.Value.flushed5]
  refine funext fun (j : S1x1x512x2048.Idx) => ?_
  obtain ⟨j0, j1, r, k, rfl⟩ : ∃ (j0 j1 : Fin 1) (r : Fin 512) (k : Fin 2048), j = ix4 j0 j1 r k := ⟨j 0, j 1, j 2, j 3, eq_ix4 j⟩
  show out0_5 (iblk m c 0 t) (iblk m c 1 t) (iblk m c 2 t) (iblk m c 3 t) (ix4 j0 j1 r k)
      = attn scaleMul (V m c main_arg0) (V m c main_arg1) (V m c main_arg3) (((cfg0.win 5).blk t).view.emb (ix4 j0 j1 r k))
  rw [emb5 t j0 j1 r k]
  refine (out5_apply _ _ _ _ j0 j1 r k).trans ?_
  rw [score_blocks m c t r]
  rfl

/-- What point t writes back to the context window is its block of the context array. -/
theorem flushed4_eq (c : Dev nD) (t : Fin cfg0.N) :
    (dats m 0 c).flushed 4 t
      = ((cfg0.win 4).blk t).view.read (Elt Ideal)
          (context scaleMul (V m c main_arg0) (V m c main_arg1) (V m c main_arg2) (V m c main_arg3)) := by
  rw [Cert.KernelIdeal.Value.flushed4]
  refine funext fun (j : S1x1x512x64.Idx) => ?_
  obtain ⟨j0, j1, r, d, rfl⟩ : ∃ (j0 j1 : Fin 1) (r : Fin 512) (d : Fin 64), j = ix4 j0 j1 r d := ⟨j 0, j 1, j 2, j 3, eq_ix4 j⟩
  show out0_4 (iblk m c 0 t) (iblk m c 1 t) (iblk m c 2 t) (iblk m c 3 t) (ix4 j0 j1 r d)
      = context scaleMul (V m c main_arg0) (V m c main_arg1) (V m c main_arg2) (V m c main_arg3) (((cfg0.win 4).blk t).view.emb (ix4 j0 j1 r d))
  rw [emb4 t j0 j1 r d]
  refine (out4_apply _ _ _ _ j0 j1 r d).trans ?_
  have e2 : (fun k d' => iblk m c 2 t (ix4 (0 : Fin 1) (0 : Fin 1) k d')) = fun k d' => V m c main_arg2 (ix4 (batchOf t) (headOf t) k d') :=
    funext fun k => funext fun d' => congrArg (V m c main_arg2) (emb2 t k d')
  rw [score_blocks m c t r, e2]
  rfl

/-! ## The blocks cover the arrays -/

/-- An index of the attention array is in point t's block iff each coordinate is in the block's range on its axis. -/
theorem mem_blk5 (t : Fin cfg0.N) (i : S2x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v0_1).slice (win0_5.rect t)).set ↔ _
  rw [View.set_slice_whole, Rect.mem_set_unit]
  exact Iff.rfl

/-- An index of the context array is in point t's block iff each coordinate is in the block's range on its axis. -/
theorem mem_blk4 (t : Fin cfg0.N) (i : S2x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v0_0).slice (win0_4.rect t)).set ↔ _
  rw [View.set_slice_whole, Rect.mem_set_unit]
  exact Iff.rfl

/-- Row q of head h of batch entry b of the attention array is in the block of the point at (b, h, q / 512). -/
theorem cover5 (i : S2x16x2048x2048.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Row q of head h of batch entry b of the context array is in the block of the point at (b, h, q / 512). -/
theorem cover4 (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  obtain ⟨-, -, -, -, -, -, -, -, -, -, -, -, -, -, -, -, e40, e41, e42, e43, -⟩ := idx_facts t
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The arrays after the run -/

/-- After the run the attention window's array is the attention matrix of the argument arrays. -/
theorem final5 (c : Dev nD) :
    (dats m 0 c).arrAt 5 cfg0.N
      = attn scaleMul (m ((c : Thread nD τ).loc main_arg0)) (m ((c : Thread nD τ).loc main_arg1)) (m ((c : Thread nD τ).loc main_arg3)) :=
  (dats m 0 c).arrAt_eq_of_cover 5 _ (fun t _ => flushed5_eq m c t) cover5

/-- After the run the context window's array is the context array of the argument arrays. -/
theorem final4 (c : Dev nD) :
    (dats m 0 c).arrAt 4 cfg0.N
      = context scaleMul (m ((c : Thread nD τ).loc main_arg0)) (m ((c : Thread nD τ).loc main_arg1)) (m ((c : Thread nD τ).loc main_arg2))
          (m ((c : Thread nD τ).loc main_arg3)) :=
  (dats m 0 c).arrAt_eq_of_cover 4 _ (fun t _ => flushed4_eq m c t) cover4

/-- The kernel's run with both results named as functions of the arguments, the arguments unchanged. -/
theorem run : θ_run defs (onTc (τ := τ) (main (F := Ideal))) ⟨m, fun _ => 0, ρ⟩ fun r => ∀ c : Dev nD,
      r.2.mem ((c : Thread nD τ).loc main_v0_0)
        = context scaleMul (m ((c : Thread nD τ).loc main_arg0)) (m ((c : Thread nD τ).loc main_arg1)) (m ((c : Thread nD τ).loc main_arg2))
            (m ((c : Thread nD τ).loc main_arg3))
      ∧ r.2.mem ((c : Thread nD τ).loc main_v0_1)
        = attn scaleMul (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.KernelIdeal.ArrayValue

end
-- ==== Proof.lean ====
/-
  The certificate of the masked scaled dot-product attention kernel against its reference.

  The kernel tiles the queries: the grid's point (b, qi, h) loads 512 query rows of head h of batch entry b, all 2048
  key and value rows of that head and the matching 512 rows of the mask, computes the scores (query row against key
  row, times 1/8), fills the masked positions with -1e9, takes the softmax of each row in one pass (row maximum, exponentials,
  row sum, quotient) and the weighted sum of the value rows, and writes both back. The reference computes the same
  quantities on whole arrays, with the scores divided by 8 and one more maximum with -infinity after the row maximum.

  On the extended reals the two programs compute one function of the four arguments, index by index: a change of float
  format is the identity; the product with 1/8 is the quotient by 8 at every extended real; the maximum with -infinity
  changes nothing; the matrix products and row sums are the same finite sums; and every point's block is the
  restriction of the whole-array function, the blocks covering both results. No step needs the inputs to be finite.
  The frames are the generated ones; the ideal pass rewrote nothing, so there is nothing to preserve.
-/
import proofs.«109617_j75342316306972_2_alg».proof.Defs
import proofs.«109617_j75342316306972_2_alg».proof.Proof.Gen.Kernel
import proofs.«109617_j75342316306972_2_alg».proof.Proof.Gen.Kernel.Frame
import proofs.«109617_j75342316306972_2_alg».proof.Proof.Gen.KernelIdeal
import proofs.«109617_j75342316306972_2_alg».proof.Proof.Gen.KernelIdeal.Frame
import proofs.«109617_j75342316306972_2_alg».proof.Proof.Gen.KernelIdeal.Value
import proofs.«109617_j75342316306972_2_alg».proof.Proof.Gen.ReferenceIdeal
import proofs.«109617_j75342316306972_2_alg».proof.Proof.Gen.ReferenceIdeal.Run
import proofs.«109617_j75342316306972_2_alg».proof.Proof.Gen.ReferenceIdeal.Read
import proofs.«109617_j75342316306972_2_alg».proof.Proof.Gen.Pre_finite_inputs
import proofs.«109617_j75342316306972_2_alg».proof.Proof.Attention
import proofs.«109617_j75342316306972_2_alg».proof.Proof.Reference
import proofs.«109617_j75342316306972_2_alg».proof.Proof.KernelArray
import Idealize.ShloMosaic.Adequacy
import Idealize.ShloMosaic.Init

noncomputable section

namespace Cert.Proof

open Idealize.ShloMosaic Idealize.ShloMosaic.TcCoe Idealize.SL.Sem Cert.Attention

/-- The kernel as printed runs, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with its two results dropped, is its frame. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the context array and the attention matrix of the arguments: the kernel with the scores
    scaled by the product with 1/8, the reference by the quotient by 8, one function on the extended reals. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2, scaleMul_eq_scaleDiv]
    exact (Cert.ReferenceIdeal.Read.val_main_v17_eq _ _ _ _).trans (Cert.ReferenceIdeal.RefValue.context_eq _ _ _ _)
  · rw [(hagree c).1, (hagree c).2.1, (hagree c).2.2.2, scaleMul_eq_scaleDiv]
    exact (Cert.ReferenceIdeal.Read.val_main_v16_eq _ _ _).trans (Cert.ReferenceIdeal.RefValue.attn_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
